-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x128 : Shape := ⟨2, ![50000, 128]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S50000 32) (main_arg1 : IVec S2x600000 32) (main_arg2 : FVec F S50000x128 .f32) (main_arg3 : FVec F S128x256 .f32) (main_arg4 : FVec F S128 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000 : Shape := ⟨1, ![50000]⟩
abbrev S2x600000 : Shape := ⟨2, ![2, 600000]⟩
abbrev S50000x128 : Shape := ⟨2, ![50000, 128]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S256x128 : Shape := ⟨2, ![256, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 42
  | .vmem => 11
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x256, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S256x128, .f32⟩
  | .hbm, ⟨36, _⟩ => ⟨S128x128, .f32⟩
  | .hbm, ⟨37, _⟩ => ⟨S128x128, .bf16⟩
  | .hbm, ⟨38, _⟩ => ⟨S128x128, .f32⟩
  | .hbm, ⟨39, _⟩ => ⟨S128x128, .bf16⟩
  | .hbm, ⟨40, _⟩ => ⟨S1x128, .f32⟩
  | .hbm, ⟨41, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x256_S256x128_1_0 : S128x256.Transposes [1, 0] S256x128
  slices_S256x128_S128x128_0_0 : S256x128.Slices ![0, 0] S128x128
  bitsLt_bf16_f32 : FTy.bits .bf16 < FTy.bits .f32
  slices_S256x128_S128x128_128_0 : S256x128.Slices ![128, 0] S128x128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x128 : Shape := ⟨2, ![50000, 128]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x256, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S128x256_S50000x128_1_1_0_0_n_n_wf : DotDims.WF S50000x256 S128x256 S50000x128 [1] [1] [0] [0] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S128x256_S50000x128_1_1_0_0_n_n : DotDims S50000x256 S128x256 S50000x128 where
  lhsContracting := [1]
  rhsContracting := [1]
  lhsNonContracting := [0]
  rhsNonContracting := [0]
  lhsBatch := []
  rhsBatch := []
  wf := dot_S50000x256_S128x256_S50000x128_1_1_0_0_n_n_wf

class Facts : Prop extends Facts₀ where

variable [Facts]
-- ==== Proof.SageSpec.lean ====
/-
  The mean-aggregating graph layer, entry by entry.

  For node `n` and output feature `o` the layer's value is

      max ( Σ_k x(n,k)·W(o,k)  +  Σ_k (S(n,k) / y(n))·W(o,128+k)  +  b(o) ,  0 )

  where `x` is the node-feature array, `S(n,·)` the sum of the features of the nodes with an edge into `n`,
  `y(n)` the number of such edges or one if there are none, `W` the weight array whose rows hold first the 128
  weights that meet the node's own features and then the 128 that meet the mean of its neighbours', and `b` the
  bias. Both programs compute `S` and `y` by the same gather and scatter; here they are parameters.

  Two laws join the two ways the value is computed. One program multiplies `S(n,k)` by the reciprocal `1 / y(n)`
  where the other divides by `y(n)`: on the extended reals these agree whenever `y(n) ≠ 0`, and `y(n) ≥ 1`. One
  program contracts a row of 256 entries at once where the other contracts its two halves of 128 and adds: a finite
  sum over 256 indices is the sum over the first 128 plus the sum over the last 128, in any commutative monoid.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- Column `k` of the first half of a row of 256. -/
abbrev lo (k : Fin 128) : Fin 256 := ⟨k.val, by omega⟩
/-- Column `k` of the second half of a row of 256. -/
abbrev hi (k : Fin 128) : Fin 256 := ⟨128 + k.val, by omega⟩

/-- The layer's value at node `n` and output feature `o`, from the neighbour sums `S`, the clamped in-degrees `y`,
    the features `x`, the weights `W` and the bias `b`. -/
def layerAt (S : (⟨2, ![50000, 128]⟩ : Shape).Idx → EReal) (y : (⟨1, ![50000]⟩ : Shape).Idx → EReal)
    (x : (⟨2, ![50000, 128]⟩ : Shape).Idx → EReal) (W : (⟨2, ![128, 256]⟩ : Shape).Idx → EReal)
    (b : (⟨1, ![128]⟩ : Shape).Idx → EReal) (n : Fin 50000) (o : Fin 128) : EReal :=
  max ((∑ k : Fin 128, x (ix2 n k) * W (ix2 o (lo k))
        + ∑ k : Fin 128, Ideal.div (S (ix2 n k)) (y (ix1 n)) * W (ix2 o (hi k))) + b (ix1 o)) 0

/-- The layer's result array. -/
def layer (S : (⟨2, ![50000, 128]⟩ : Shape).Idx → EReal) (y : (⟨1, ![50000]⟩ : Shape).Idx → EReal)
    (x : (⟨2, ![50000, 128]⟩ : Shape).Idx → EReal) (W : (⟨2, ![128, 256]⟩ : Shape).Idx → EReal)
    (b : (⟨1, ![128]⟩ : Shape).Idx → EReal) : (⟨2, ![50000, 128]⟩ : Shape).Idx → EReal :=
  fun i => layerAt S y x W b (i 0) (i 1)

theorem layer_ix2 (S : (⟨2, ![50000, 128]⟩ : Shape).Idx → EReal) (y : (⟨1, ![50000]⟩ : Shape).Idx → EReal)
    (x : (⟨2, ![50000, 128]⟩ : Shape).Idx → EReal) (W : (⟨2, ![128, 256]⟩ : Shape).Idx → EReal)
    (b : (⟨1, ![128]⟩ : Shape).Idx → EReal) (n : Fin 50000) (o : Fin 128) :
    layer S y x W b (ix2 n o) = layerAt S y x W b n o := rfl

/-- Multiplying by the reciprocal of a number that is at least one is dividing by it: such a number is not zero, so
    both sides are the product with its inverse. -/
theorem mul_recip {s y : EReal} (hy : 1 ≤ y) : s * Ideal.div 1 y = Ideal.div s y := by
  have h0 : y ≠ 0 := fun h => absurd (h ▸ hy) (not_le.mpr zero_lt_one)
  unfold Ideal.div
  rw [if_neg h0, if_neg h0, one_mul]

/-- A sum over a row of 256 is the sum over its first half plus the sum over its second half. -/
theorem sum_halves (f : Fin 256 → EReal) : ∑ k : Fin 256, f k = ∑ k : Fin 128, f (lo k) + ∑ k : Fin 128, f (hi k) :=
  Fin.sum_univ_add (a := 128) (b := 128) f

end Cert.Sage

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.SageBody.lean ====
/-
  One block of the kernel, entry by entry.

  At a grid point the body holds six blocks: 5000 rows of the features `x0`, the same 5000 rows of the neighbour
  sums `x1`, those rows' reciprocal degrees as a column `x2`, the two 128 × 128 halves of the transposed weights
  `x3` and `x4`, and the bias as one row `x5`. It scales each row of `x1` by its entry of `x2`, multiplies `x0` by
  `x3` and the scaled rows by `x4` (each product accumulated from zero), adds the two products and the bias row, and
  clamps at zero. Read at row `r` and column `o` that is

      max ( Σ_k x0(r,k)·x3(k,o)  +  Σ_k (x1(r,k)·x2(r,0))·x4(k,o)  +  x5(0,o) ,  0 ):

  a matrix product read at an entry is the sum over the contracted index of the operands' products, the column
  spread along the rows reads its row's one entry, the bias row spread down the rows reads its column's entry, and
  changing a number's format does nothing to an extended real.
-/
import proofs.«157514_j49331994362503_2_alg».proof.Proof.Gen.KernelIdeal.Skeleton
import proofs.«157514_j49331994362503_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Body

open Cert.KernelIdeal Cert.KernelIdeal.Gen Idealize.ShloMosaic Idealize.ShloMosaic.ValueIdx

/-- The body's matrix product: rows of the left operand against columns of the right. -/
abbrev mm := dot_S5000x128_S128x128_S5000x128_1_0_0_1_n_n

theorem lhs_row (i : S5000x128.Idx) (q : mm.contr.Idx) : (mm.lhsIdx i q 0).val = (i 0).val := by
  unfold DotDims.lhsIdx
  rw [dif_neg (show ¬(0 : Fin S5000x128.rank) ∈ mm.lhsBatch by decide),
    dif_pos (show (0 : Fin S5000x128.rank) ∈ mm.lhsNonContracting by decide)]
  rfl

theorem lhs_contr (i : S5000x128.Idx) (q : mm.contr.Idx) : (mm.lhsIdx i q 1).val = (q ⟨0, by decide⟩).val :=
  mm.lhsIdx_val_of_single rfl i q

theorem rhs_contr (i : S5000x128.Idx) (q : mm.contr.Idx) : (mm.rhsIdx i q 0).val = (q ⟨0, by decide⟩).val :=
  mm.rhsIdx_val_of_single rfl i q

theorem rhs_col (i : S5000x128.Idx) (q : mm.contr.Idx) : (mm.rhsIdx i q 1).val = (i 1).val := by
  unfold DotDims.rhsIdx
  rw [dif_neg (show ¬(1 : Fin S128x128.rank) ∈ mm.rhsBatch by decide),
    dif_pos (show (1 : Fin S128x128.rank) ∈ mm.rhsNonContracting by decide)]
  rfl

/-- The product accumulated from zero, read at row `r` and column `o`: the sum over the 128 contracted positions
    of the left operand's row entry times the right operand's column entry. -/
theorem matmul_zero_apply (lhs : FVec Ideal S5000x128 .bf16) (rhs : FVec Ideal S128x128 .bf16) (r : Fin 5000) (o : Fin 128) :
    matmul mm none lhs rhs (constant (F := Ideal) S5000x128 .f32 0x00000000#32) (ix2 r o)
      = ∑ k : Fin 128, lhs (ix2 r k) * rhs (ix2 k o) := by
  refine (Ideal.matmul_constant_zero_apply mm none lhs rhs (ix2 r o)).trans ?_
  rw [← Equiv.sum_comp (ValueIdx.contrEquiv1 mm 128 rfl rfl).symm]
  refine Finset.sum_congr rfl fun k _ => ?_
  have hk := ValueIdx.contrEquiv1_symm_val mm 128 rfl rfl k
  have el : mm.lhsIdx (ix2 r o) ((ValueIdx.contrEquiv1 mm 128 rfl rfl).symm k) = ix2 r k := funext fun a => Fin.ext (by
    match a with
    | ⟨0, _⟩ => exact lhs_row _ _
    | ⟨1, _⟩ => exact (lhs_contr _ _).trans hk)
  have er : mm.rhsIdx (ix2 r o) ((ValueIdx.contrEquiv1 mm 128 rfl rfl).symm k) = ix2 k o := funext fun a => Fin.ext (by
    match a with
    | ⟨0, _⟩ => exact (rhs_contr _ _).trans hk
    | ⟨1, _⟩ => exact rhs_col _ _)
  rw [el, er]

/-- What the body stores at row `r` and column `o` of its block, from the six blocks it loads. -/
def blockAt (x0 x1 : FVec Ideal S5000x128 .f32) (x2 : FVec Ideal S5000x1 .f32) (x3 x4 : FVec Ideal S128x128 .bf16)
    (x5 : FVec Ideal S1x128 .f32) (r : Fin 5000) (o : Fin 128) : EReal :=
  max ((∑ k : Fin 128, x0 (ix2 r k) * x3 (ix2 k o)
        + ∑ k : Fin 128, (x1 (ix2 r k) * x2 (ix2 r (0 : Fin 1))) * x4 (ix2 k o)) + x5 (ix2 (0 : Fin 1) o)) 0

/-- The body's stored value, read at an entry, is `blockAt`. -/
theorem payload_apply (x0 x1 : FVec Ideal S5000x128 .f32) (x2 : FVec Ideal S5000x1 .f32) (x3 x4 : FVec Ideal S128x128 .bf16)
    (x5 : FVec Ideal S1x128 .f32) (r : Fin 5000) (o : Fin 128) :
    k0_pay1 (F := Ideal) x0 x1 x2 x3 x4 x5 (ix2 r o) = blockAt x0 x1 x2 x3 x4 x5 r o := by
  unfold k0_pay1 blockAt
  show max ((matmul mm none (truncf .bf16 x0 bitsLt_bf16_f32) (shapeCast S128x128 x3 shapeCasts_S128x128_S128x128)
          (constant (F := Ideal) S5000x128 .f32 0x00000000#32) (ix2 r o)
        + matmul mm none (truncf .bf16 (mulf (shapeCast S5000x128 x1 shapeCasts_S5000x128_S5000x128)
            (broadcastTo S5000x128 (shapeCast S5000x1 x2 shapeCasts_S5000x1_S5000x1) broadcasts_S5000x1_S5000x128)) bitsLt_bf16_f32)
          (shapeCast S128x128 x4 shapeCasts_S128x128_S128x128) (constant (F := Ideal) S5000x128 .f32 0x00000000#32) (ix2 r o))
      + broadcastTo S5000x128 (shapeCast S1x128 x5 shapeCasts_S1x128_S1x128) broadcasts_S1x128_S5000x128 (ix2 r o))
      (Ideal.ofBits .f32 0x00000000#32) = _
  rw [matmul_zero_apply, matmul_zero_apply, Cert.LibKeepdims.row_spread_apply, Ideal.ofBits_zero_f32]
  simp only [shapeCast_self, truncf_apply, mulf_apply, Cert.LibKeepdims.broadcastTo_a1_ab_apply]

end Cert.Sage.Body

end
-- ==== Proof.SageHost.lean ====
/-
  The arrays the kernel's grid finds, as functions of the program's arguments.

  Before its grid runs the program prepares five arrays besides the features themselves: the neighbour sums (each
  edge's source row of the features, added into the edge's target row); the column of reciprocal degrees, `1 / y(n)`
  with `y(n)` the number of edges into `n` clamped below at one; the two 128 × 128 halves of the transposed weights,
  whose entry `(k, o)` is the weight array's entry `(o, k)` for the first half and `(o, 128 + k)` for the second; and
  the bias as one row. The gather and the two scatters are named and never opened: all that is used of the clamped
  in-degree is that a maximum with one is at least one.
-/
import proofs.«157514_j49331994362503_2_alg».proof.Proof.Gen.KernelIdeal.Frame
import proofs.«157514_j49331994362503_2_alg».proof.Proof.SageSpec
import Idealize.ShloMosaic.Lib.Pipeline.Value
import Idealize.ShloMosaic.Lib.ValueIdx
import Idealize.ShloMosaic.Lib.IdealHost

noncomputable section

namespace Cert.Sage.Host

open Cert.KernelIdeal Cert.KernelIdeal.Gen Idealize.ShloMosaic Idealize.ShloMosaic.TcCoe Idealize.SL.Sem
open Idealize.ShloMosaic.ValueIdx Idealize.ShloMosaic.StableHlo
open Cert.Sage

/-- The neighbour sums: for every edge, the source node's row of the features added into the target node's row. -/
def nbrSum (e : (⟨S2x600000, .i32⟩ : BufTy).Contents (Elt Ideal)) (x : (⟨S50000x128, .f32⟩ : BufTy).Contents (Elt Ideal)) : (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (shapeCast _ (extractStridedSlice S1x600000 ![1, 0] e slices_S2x600000_S1x600000_1_0) shapeCasts_S1x600000_S600000))
    (Host.gather gather_S50000x128_S600000x1_S600000x128_1_0_n_n_0_1_1128 x
      (broadcastInDim S600000x1 ![0] bcast_S600000_S600000x1_0
        (select (cmpi .slt (shapeCast _ (extractStridedSlice S1x600000 ![0, 0] e slices_S2x600000_S1x600000_0_0) shapeCasts_S1x600000_S600000) (broadcastInDim S600000 ![] bcast_S_S600000 (constantI S_ 32 0#32)))
          (addi (shapeCast _ (extractStridedSlice S1x600000 ![0, 0] e slices_S2x600000_S1x600000_0_0) shapeCasts_S1x600000_S600000) (broadcastInDim S600000 ![] bcast_S_S600000 (constantI S_ 32 50000#32)))
          (shapeCast _ (extractStridedSlice S1x600000 ![0, 0] e slices_S2x600000_S1x600000_0_0) shapeCasts_S1x600000_S600000))))

/-- The clamped in-degree: the number of edges into each node, or one where there are none. -/
def degClamp (e : (⟨S2x600000, .i32⟩ : BufTy).Contents (Elt Ideal)) : (⟨S50000, .f32⟩ : BufTy).Contents (Elt Ideal) :=
  maximumf
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 (shapeCast _ (extractStridedSlice S1x600000 ![1, 0] e slices_S2x600000_S1x600000_1_0) shapeCasts_S1x600000_S600000))
      (broadcastInDim S600000 ![] bcast_S_S600000 (constant (F := Ideal) S_ .f32 0x3F800000#32)))
    (broadcastInDim S50000 ![] bcast_S_S50000 (constant (F := Ideal) S_ .f32 0x3F800000#32))

/-- The reciprocals of the clamped in-degrees, as a column. -/
def recipCol (e : (⟨S2x600000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32)) (degClamp e))

/-- The first 128 rows of the transposed weights: the weights that meet a node's own features. -/
def wSelf (W : (⟨S128x256, .f32⟩ : BufTy).Contents (Elt Ideal)) : FVec Ideal S128x128 .bf16 :=
  truncf (F := Ideal) .bf16 (extractStridedSlice S128x128 ![0, 0] (transpose S256x128 [1, 0] W transposes_S128x256_S256x128_1_0)
    slices_S256x128_S128x128_0_0) bitsLt_bf16_f32

/-- The last 128 rows of the transposed weights: the weights that meet the mean of the neighbours' features. -/
def wNbr (W : (⟨S128x256, .f32⟩ : BufTy).Contents (Elt Ideal)) : FVec Ideal S128x128 .bf16 :=
  truncf (F := Ideal) .bf16 (extractStridedSlice S128x128 ![128, 0] (transpose S256x128 [1, 0] W transposes_S128x256_S256x128_1_0)
    slices_S256x128_S128x128_128_0) bitsLt_bf16_f32

/-- The bias as one row. -/
def biasRow (b : (⟨S128, .f32⟩ : BufTy).Contents (Elt Ideal)) : (⟨S1x128, .f32⟩ : BufTy).Contents (Elt Ideal) :=
  broadcastInDim S1x128 ![1] bcast_S128_S1x128_1 b

/-! ## Read at an entry -/

/-- A maximum with one is at least one, whatever the other number. -/
theorem one_le_clamp (d : (⟨S50000, .f32⟩ : BufTy).Contents (Elt Ideal)) (n : Fin 50000) :
    1 ≤ maximumf (F := Ideal) d (broadcastInDim S50000 ![] bcast_S_S50000 (constant (F := Ideal) S_ .f32 0x3F800000#32)) (ix1 n) := by
  show 1 ≤ max (d (ix1 n)) (Ideal.ofBits .f32 0x3F800000#32)
  rw [Ideal.ofBits_one_f32]
  exact le_max_right _ _

/-- So the clamped in-degree is at least one. -/
theorem one_le_degClamp (e : (⟨S2x600000, .i32⟩ : BufTy).Contents (Elt Ideal)) (n : Fin 50000) : 1 ≤ degClamp e (ix1 n) := by
  unfold degClamp
  exact one_le_clamp _ n

/-- A vector of `a` entries laid out as the column `[a, 1]` reads, at row `p`, the vector's entry `p`. -/
theorem column_apply {α : Type} {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) (fun ax => ?_)
  match ax with
  | ⟨0, _⟩ =>
    show p.val = if a = 1 then 0 else p.val
    split
    · have := p.isLt; omega
    · rfl

/-- The reciprocals of a vector `y`, laid out as a column, read at row `n` one over `y`'s entry `n`. -/
theorem recip_column_apply (y : (⟨S50000, .f32⟩ : BufTy).Contents (Elt Ideal)) (n : Fin 50000) :
    broadcastInDim S50000x1 ![0] bcast_S50000_S50000x1_0
      (Host.divf (F := Ideal) (broadcastInDim S50000 ![] bcast_S_S50000 (constant (F := Ideal) S_ .f32 0x3F800000#32)) y) (ix2 n (0 : Fin 1))
      = Ideal.div 1 (y (ix1 n)) := by
  refine (column_apply _ bcast_S50000_S50000x1_0 n (0 : Fin 1)).trans ?_
  show Ideal.div (Ideal.ofBits .f32 0x3F800000#32) (y (ix1 n)) = _
  rw [Ideal.ofBits_one_f32]

/-- Row `n` of the column of reciprocals is one over the clamped in-degree of `n`. -/
theorem recipCol_apply (e : (⟨S2x600000, .i32⟩ : BufTy).Contents (Elt Ideal)) (n : Fin 50000) : recipCol e (ix2 n (0 : Fin 1)) = Ideal.div 1 (degClamp e (ix1 n)) := by
  unfold recipCol
  exact recip_column_apply _ n

/-- Entry `(k, o)` of the first half of the transposed weights is the weight array's entry `(o, k)`. -/
theorem wSelf_apply (W : (⟨S128x256, .f32⟩ : BufTy).Contents (Elt Ideal)) (k o : Fin 128) : wSelf W (ix2 k o) = W (ix2 o (lo k)) := by
  unfold wSelf
  show extractStridedSlice S128x128 ![0, 0] (transpose S256x128 [1, 0] W transposes_S128x256_S256x128_1_0)
    slices_S256x128_S128x128_0_0 (ix2 k o) = _
  refine (extractStridedSlice_apply ![0, 0] _ slices_S256x128_S128x128_0_0 (ix2 k o) (ix2 (lo k) o) (fun a => ?_)).trans ?_
  · match a with
    | ⟨0, _⟩ => show k.val = 0 + k.val; omega
    | ⟨1, _⟩ => show o.val = 0 + o.val; omega
  · exact transpose_apply [1, 0] W transposes_S128x256_S256x128_1_0 (ix2 (lo k) o) (ix2 o (lo k)) (fun b => by
      match b with
      | ⟨0, _⟩ => rfl
      | ⟨1, _⟩ => rfl)

/-- Entry `(k, o)` of the second half of the transposed weights is the weight array's entry `(o, 128 + k)`. -/
theorem wNbr_apply (W : (⟨S128x256, .f32⟩ : BufTy).Contents (Elt Ideal)) (k o : Fin 128) : wNbr W (ix2 k o) = W (ix2 o (hi k)) := by
  unfold wNbr
  show extractStridedSlice S128x128 ![128, 0] (transpose S256x128 [1, 0] W transposes_S128x256_S256x128_1_0)
    slices_S256x128_S128x128_128_0 (ix2 k o) = _
  refine (extractStridedSlice_apply ![128, 0] _ slices_S256x128_S128x128_128_0 (ix2 k o) (ix2 (hi k) o) (fun a => ?_)).trans ?_
  · match a with
    | ⟨0, _⟩ => show 128 + k.val = 128 + k.val; rfl
    | ⟨1, _⟩ => show o.val = 0 + o.val; omega
  · exact transpose_apply [1, 0] W transposes_S128x256_S256x128_1_0 (ix2 (hi k) o) (ix2 o (hi k)) (fun b => by
      match b with
      | ⟨0, _⟩ => rfl
      | ⟨1, _⟩ => rfl)

/-- Column `o` of the bias row is the bias of `o`. -/
theorem biasRow_apply (b : (⟨S128, .f32⟩ : BufTy).Contents (Elt Ideal)) (o : Fin 128) : biasRow b (ix2 (0 : Fin 1) o) = b (ix1 o) := by
  unfold biasRow
  refine broadcastInDim_apply _ bcast_S128_S1x128_1 b (ix2 (0 : Fin 1) o) (ix1 o) (fun a => ?_)
  match a with
  | ⟨0, _⟩ => show o.val = if (128 : Nat) = 1 then 0 else o.val; rw [if_neg (by decide)]

end Cert.Sage.Host

end
-- ==== Proof.SageFound.lean ====
/-
  What the kernel's grid finds in its input arrays.

  Thirty-six array operations run before the grid. Reading their results one buffer at a time, the five arrays the
  grid stages besides the features are the neighbour sums, the column of reciprocal degrees, the two halves of the
  transposed weights and the bias row, each as the named function of the program's arguments.
-/
import proofs.«157514_j49331994362503_2_alg».proof.Proof.Gen.KernelIdeal.Frame
import proofs.«157514_j49331994362503_2_alg».proof.Proof.SageHost
import Idealize.ShloMosaic.Lib.StableHlo.Run

noncomputable section

namespace Cert.Sage.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

theorem found_nbrSum (c : Dev nD) :
    (V m c main_v13 : S50000x128.Idx → EReal) = nbrSum (m ((c : Thread nD τ).loc main_arg1)) (m ((c : Thread nD τ).loc main_arg2)) := by
  dsimp only [Gen.V, Gen.hostOps0]
  after_results_simp <;> rfl

theorem found_recipCol (c : Dev nD) :
    (V m c main_v22 : S50000x1.Idx → EReal) = recipCol (m ((c : Thread nD τ).loc main_arg1)) := by
  dsimp only [Gen.V, Gen.hostOps0]
  after_results_simp <;> rfl

theorem found_wSelf (c : Dev nD) :
    (V m c main_v25 : S128x128.Idx → EReal) = wSelf (m ((c : Thread nD τ).loc main_arg3)) := by
  dsimp only [Gen.V, Gen.hostOps0]
  after_results_simp <;> rfl

theorem found_wNbr (c : Dev nD) :
    (V m c main_v27 : S128x128.Idx → EReal) = wNbr (m ((c : Thread nD τ).loc main_arg3)) := by
  dsimp only [Gen.V, Gen.hostOps0]
  after_results_simp <;> rfl

theorem found_biasRow (c : Dev nD) :
    (V m c main_v28 : S1x128.Idx → EReal) = biasRow (m ((c : Thread nD τ).loc main_arg4)) := by
  dsimp only [Gen.V, Gen.hostOps0]
  after_results_simp <;> rfl

end Cert.Sage.Host

end
-- ==== Proof.SageValue.lean ====
/-
  From blocks to the whole result array.

  The grid has ten points; point `t` works on rows `5000·t … 5000·t + 4999`. Its blocks of the features, of the
  neighbour sums and of the reciprocal column are those rows of their arrays; the two weight halves and the bias
  row are read whole at every point. So what point `t` writes back, read at local row `r` and column `o`, is the
  body's value over those blocks, and that is the layer's value at node `5000·t + r` and feature `o`: the block
  entries are the arrays' entries of that node, the scaled neighbour sum `S · (1 / y)` is the quotient `S / y` because
  `y ≥ 1`, and the half-weights are the two halves of the node's weight row. The ten row ranges cover every node
  — node `n` lies in the range of point `n / 5000` —, so the array the run leaves is the layer of the arguments.
-/
import proofs.«157514_j49331994362503_2_alg».proof.Proof.Gen.KernelIdeal.Value
import proofs.«157514_j49331994362503_2_alg».proof.Proof.SageSpec
import proofs.«157514_j49331994362503_2_alg».proof.Proof.SageBody
import proofs.«157514_j49331994362503_2_alg».proof.Proof.SageHost
import proofs.«157514_j49331994362503_2_alg».proof.Proof.SageFound
import Idealize.ShloMosaic.Lib.Pipeline.Value
import Idealize.ShloMosaic.Lib.ValueIdx

noncomputable section

open scoped BigOperators

namespace Cert.Sage

open Idealize.ShloMosaic Idealize.ShloMosaic.ValueIdx

/-- The body's value over six blocks is the layer's value at node `n` and feature `o` once each block entry it
    reads is the matching entry of the layer's arrays. -/
theorem blockAt_eq_layerAt
    (x0 x1 : FVec Ideal Cert.KernelIdeal.S5000x128 .f32) (x2 : FVec Ideal Cert.KernelIdeal.S5000x1 .f32)
    (x3 x4 : FVec Ideal Cert.KernelIdeal.S128x128 .bf16) (x5 : FVec Ideal Cert.KernelIdeal.S1x128 .f32)
    (S : (⟨2, ![50000, 128]⟩ : Shape).Idx → EReal) (y : (⟨1, ![50000]⟩ : Shape).Idx → EReal)
    (x : (⟨2, ![50000, 128]⟩ : Shape).Idx → EReal) (W : (⟨2, ![128, 256]⟩ : Shape).Idx → EReal)
    (b : (⟨1, ![128]⟩ : Shape).Idx → EReal) (r : Fin 5000) (o : Fin 128) (n : Fin 50000)
    (h0 : ∀ k : Fin 128, x0 (ix2 r k) = x (ix2 n k)) (h1 : ∀ k : Fin 128, x1 (ix2 r k) = S (ix2 n k))
    (h2 : x2 (ix2 r (0 : Fin 1)) = Ideal.div 1 (y (ix1 n))) (hy : 1 ≤ y (ix1 n))
    (h3 : ∀ k : Fin 128, x3 (ix2 k o) = W (ix2 o (lo k))) (h4 : ∀ k : Fin 128, x4 (ix2 k o) = W (ix2 o (hi k)))
    (h5 : x5 (ix2 (0 : Fin 1) o) = b (ix1 o)) :
    Body.blockAt x0 x1 x2 x3 x4 x5 r o = layerAt S y x W b n o := by
  unfold Body.blockAt layerAt
  simp only [h0, h1, h2, h3, h4, h5, mul_recip hy]

end Cert.Sage

namespace Cert.Sage.Value

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.Sage Cert.Sage.Host

variable (m : (ℓ : Loc nD τ sig) → Buf (Elt Ideal) ℓ) (ρ : Dev nD → PrngReg)

theorem hz : (![0, 0] : Fin 2 → Nat) = fun _ => 0 := funext fun a => by fin_cases a <;> rfl

/-- The layer of the arguments on core `c`: what the result array will be shown to hold. -/
abbrev result (c : Dev nD) : Buf (Elt Ideal) ((c : Thread nD τ).loc main_v29) :=
  layer (nbrSum (m ((c : Thread nD τ).loc main_arg1)) (m ((c : Thread nD τ).loc main_arg2))) (degClamp (m ((c : Thread nD τ).loc main_arg1)))
    (m ((c : Thread nD τ).loc main_arg2)) (m ((c : Thread nD τ).loc main_arg3)) (m ((c : Thread nD τ).loc main_arg4))

/-- The block positions, decided over the ten points: the three row-blocked inputs and the output sit at block row
    `t`, the weight halves and the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each block entry as an entry of its array -/

/-- Local row `r` of point `t`'s block of the features is row `n = 5000·t + r` of the features. -/
theorem read_feat (c : Dev nD) (t : Fin cfg0.N) (r : Fin 5000) (n : Fin 50000) (hn : n.val = 5000 * t.val + r.val) (k : Fin 128) :
    iblk m c 0 t (ix2 r k) = ((m ((c : Thread nD τ).loc main_arg2)) : S50000x128.Idx → EReal) (ix2 n k) := by
  show V m c main_arg2 (((cfg0.win 0).blk t).view.emb (ix2 r k)) = _
  rw [V_main_arg2]
  refine congrArg _ (funext fun a => Fin.ext ?_)
  obtain ⟨e, e', -⟩ := idx_facts t
  match a with
  | ⟨0, _⟩ => show win0_0.index t (0 : Fin 2) * 5000 + 1 * r.val = n.val; rw [e, hn]; omega
  | ⟨1, _⟩ => show win0_0.index t (1 : Fin 2) * 128 + 1 * k.val = k.val; rw [e']; omega

/-- … and of the neighbour sums, row `n` of the neighbour sums. -/
theorem read_sum (c : Dev nD) (t : Fin cfg0.N) (r : Fin 5000) (n : Fin 50000) (hn : n.val = 5000 * t.val + r.val) (k : Fin 128) :
    iblk m c 1 t (ix2 r k) = nbrSum (m ((c : Thread nD τ).loc main_arg1)) (m ((c : Thread nD τ).loc main_arg2)) (ix2 n k) := by
  show (V m c main_v13 : S50000x128.Idx → EReal) (((cfg0.win 1).blk t).view.emb (ix2 r k)) = _
  rw [found_nbrSum]
  refine congrArg _ (funext fun a => Fin.ext ?_)
  obtain ⟨-, -, e, e', -⟩ := idx_facts t
  match a with
  | ⟨0, _⟩ => show win0_1.index t (0 : Fin 2) * 5000 + 1 * r.val = n.val; rw [e, hn]; omega
  | ⟨1, _⟩ => show win0_1.index t (1 : Fin 2) * 128 + 1 * k.val = k.val; rw [e']; omega

/-- … and of the reciprocal column, entry `n` of the column. -/
theorem read_recip (c : Dev nD) (t : Fin cfg0.N) (r : Fin 5000) (n : Fin 50000) (hn : n.val = 5000 * t.val + r.val) :
    iblk m c 2 t (ix2 r (0 : Fin 1)) = recipCol (m ((c : Thread nD τ).loc main_arg1)) (ix2 n (0 : Fin 1)) := by
  show (V m c main_v22 : S50000x1.Idx → EReal) (((cfg0.win 2).blk t).view.emb (ix2 r (0 : Fin 1))) = _
  rw [found_recipCol]
  refine congrArg _ (funext fun a => Fin.ext ?_)
  obtain ⟨-, -, -, -, e, e', -⟩ := idx_facts t
  match a with
  | ⟨0, _⟩ => show win0_2.index t (0 : Fin 2) * 5000 + 1 * r.val = n.val; rw [e, hn]; omega
  | ⟨1, _⟩ => show win0_2.index t (1 : Fin 2) * 1 + 1 * 0 = 0; rw [e']

/-- Every point reads the first weight half whole. -/
theorem read_wSelf (c : Dev nD) (t : Fin cfg0.N) (k o : Fin 128) :
    iblk m c 3 t (ix2 k o) = wSelf (m ((c : Thread nD τ).loc main_arg3)) (ix2 k o) := by
  show (V m c main_v25 : S128x128.Idx → EReal) (((cfg0.win 3).blk t).view.emb (ix2 k o)) = _
  rw [found_wSelf]
  refine congrArg _ (funext fun a => Fin.ext ?_)
  obtain ⟨-, -, -, -, -, -, e, e', -⟩ := idx_facts t
  match a with
  | ⟨0, _⟩ => show win0_3.index t (0 : Fin 2) * 128 + 1 * k.val = k.val; rw [e]; omega
  | ⟨1, _⟩ => show win0_3.index t (1 : Fin 2) * 128 + 1 * o.val = o.val; rw [e']; omega

/-- … and the second weight half whole. -/
theorem read_wNbr (c : Dev nD) (t : Fin cfg0.N) (k o : Fin 128) :
    iblk m c 4 t (ix2 k o) = wNbr (m ((c : Thread nD τ).loc main_arg3)) (ix2 k o) := by
  show (V m c main_v27 : S128x128.Idx → EReal) (((cfg0.win 4).blk t).view.emb (ix2 k o)) = _
  rw [found_wNbr]
  refine congrArg _ (funext fun a => Fin.ext ?_)
  obtain ⟨-, -, -, -, -, -, -, -, e, e', -⟩ := idx_facts t
  match a with
  | ⟨0, _⟩ => show win0_4.index t (0 : Fin 2) * 128 + 1 * k.val = k.val; rw [e]; omega
  | ⟨1, _⟩ => show win0_4.index t (1 : Fin 2) * 128 + 1 * o.val = o.val; rw [e']; omega

/-- … and the bias row whole. -/
theorem read_bias (c : Dev nD) (t : Fin cfg0.N) (o : Fin 128) :
    iblk m c 5 t (ix2 (0 : Fin 1) o) = biasRow (m ((c : Thread nD τ).loc main_arg4)) (ix2 (0 : Fin 1) o) := by
  show (V m c main_v28 : S1x128.Idx → EReal) (((cfg0.win 5).blk t).view.emb (ix2 (0 : Fin 1) o)) = _
  rw [found_biasRow]
  refine congrArg _ (funext fun a => Fin.ext ?_)
  obtain ⟨-, -, -, -, -, -, -, -, -, -, e, e', -⟩ := idx_facts t
  match a with
  | ⟨0, _⟩ => show win0_5.index t (0 : Fin 2) * 1 + 1 * 0 = 0; rw [e]
  | ⟨1, _⟩ => show win0_5.index t (1 : Fin 2) * 128 + 1 * o.val = o.val; rw [e']; omega

/-- Local row `r` and column `o` of point `t`'s block of the result array is its entry `(5000·t + r, o)`. -/
theorem emb_out (t : Fin cfg0.N) (r : Fin 5000) (o : Fin 128) (n : Fin 50000) (hn : n.val = 5000 * t.val + r.val) :
    ((cfg0.win 6).blk t).view.emb (ix2 r o) = (ix2 n o : S50000x128.Idx) := by
  refine funext fun a => Fin.ext ?_
  obtain ⟨-, -, -, -, -, -, -, -, -, -, -, -, e, e'⟩ := idx_facts t
  match a with
  | ⟨0, _⟩ => show win0_6.index t (0 : Fin 2) * 5000 + 1 * r.val = n.val; rw [e, hn]; omega
  | ⟨1, _⟩ => show win0_6.index t (1 : Fin 2) * 128 + 1 * o.val = o.val; rw [e']; omega

/-! ## What a point writes back -/

/-- What point `t` writes back is block `t` of the layer of the arguments. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨r, o, rfl⟩ : ∃ (r : Fin 5000) (o : Fin 128), j = ix2 r o := ⟨j 0, j 1, eq_ix2 j⟩
  have hN : cfg0.N = 10 := N_0
  have ht : t.val < 10 := hN ▸ t.isLt
  let n : Fin 50000 := ⟨5000 * t.val + r.val, by have := r.isLt; omega⟩
  have hn : n.val = 5000 * t.val + r.val := rfl
  show k0_pay1 (F := Ideal) (iblk m c 0 t) (iblk m c 1 t) (iblk m c 2 t) (iblk m c 3 t) (iblk m c 4 t) (iblk m c 5 t) (ix2 r o)
    = result m c (((cfg0.win 6).blk t).view.emb (ix2 r o))
  rw [emb_out t r o n hn]
  refine (Body.payload_apply (iblk m c 0 t) (iblk m c 1 t) (iblk m c 2 t) (iblk m c 3 t) (iblk m c 4 t) (iblk m c 5 t) r o).trans ?_
  exact blockAt_eq_layerAt (iblk m c 0 t) (iblk m c 1 t) (iblk m c 2 t) (iblk m c 3 t) (iblk m c 4 t) (iblk m c 5 t)
    (nbrSum (m ((c : Thread nD τ).loc main_arg1)) (m ((c : Thread nD τ).loc main_arg2))) (degClamp (m ((c : Thread nD τ).loc main_arg1)))
    (m ((c : Thread nD τ).loc main_arg2)) (m ((c : Thread nD τ).loc main_arg3)) (m ((c : Thread nD τ).loc main_arg4)) r o n
    (read_feat m c t r n hn) (read_sum m c t r n hn)
    ((read_recip m c t r n hn).trans (recipCol_apply _ n)) (one_le_degClamp _ n)
    (fun k => (read_wSelf m c t k o).trans (wSelf_apply _ k o)) (fun k => (read_wNbr m c t k o).trans (wNbr_apply _ k o))
    ((read_bias m c t o).trans (biasRow_apply _ o))

/-! ## The cover and the run -/

/-- An entry is in point `t`'s block of the result array iff each coordinate is in the block's range. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v29).slice (win0_6.rect t)).set ↔ _
  rw [View.set_slice_whole, Rect.mem_set_unit]
  exact Iff.rfl

/-- Every entry of the result array is in some point's block: row `n` is in the block of point `n / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, -, -, -, -, -, -, -, -, e, e'⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e, ht]; omega
  | ⟨1, _⟩ =>
    show win0_6.index t (1 : Fin 2) * 128 ≤ (i 1).val ∧ (i 1).val < win0_6.index t (1 : Fin 2) * 128 + 128
    rw [e']; omega

/-- The result array after the run is the layer of the arguments. -/
theorem final (c : Dev nD) : (dats m 0 c).arrAt 6 cfg0.N = result m c :=
  (dats m 0 c).arrAt_eq_of_cover 6 (result m c) (fun t _ => flushed_eq m c t) cover

/-- The kernel's run: every weakly fair execution ends with the result array at the layer of the arguments and the
    arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Sage.Value

end
-- ==== Proof.SageRef.lean ====
/-
  The reference program computes the layer.

  The reference divides each neighbour sum by its node's clamped in-degree, sets the quotients beside the node's
  own features as one row of 256, contracts that row with a row of the weights, adds the bias and clamps at zero.
  Read at node `n` and output feature `o`: the contraction over 256 positions is the sum over the first 128, where
  the joined row holds the node's own features, plus the sum over the last 128, where it holds the quotients; the
  in-degree spread along a row reads the node's one entry; the bias spread down the rows reads the feature's entry.
  The neighbour sums and the clamped in-degrees are the reference's own gather and scatter stages, left unopened.
-/
import proofs.«157514_j49331994362503_2_alg».proof.Proof.Gen.ReferenceIdeal.Read
import proofs.«157514_j49331994362503_2_alg».proof.Proof.SageSpec
import Idealize.ShloMosaic.Lib.Pipeline.Value
import Idealize.ShloMosaic.Lib.ValueIdx
import Idealize.ShloMosaic.PureOps.Ideal.Laws

noncomputable section

open scoped BigOperators

namespace Cert.Sage.Ref

open Cert.ReferenceIdeal Cert.ReferenceIdeal.Gen Cert.ReferenceIdeal.Read Idealize.ShloMosaic Idealize.ShloMosaic.ValueIdx
open Cert.Sage

/-- Two arrays of 128 columns set side by side: a column of the first half reads the left array. -/
theorem concat_lo (x y : FVec Ideal S50000x128 .f32) (n : Fin 50000) (k : Fin 128) :
    concatenate S50000x256 1 [⟨S50000x128, x⟩, ⟨S50000x128, y⟩] concatenates_S50000x128_S50000x128_S50000x256_d1 (ix2 n (lo k))
      = x (ix2 n k) :=
  concatenate_pair_apply_left (1 : Fin S50000x256.rank) x y concatenates_S50000x128_S50000x128_S50000x256_d1 (ix2 n (lo k)) rfl (ix2 n k)
    (fun b => by match b with | ⟨0, _⟩ => rfl | ⟨1, _⟩ => rfl)

/-- … and a column of the second half reads the right array, 128 columns back. -/
theorem concat_hi (x y : FVec Ideal S50000x128 .f32) (n : Fin 50000) (k : Fin 128) :
    concatenate S50000x256 1 [⟨S50000x128, x⟩, ⟨S50000x128, y⟩] concatenates_S50000x128_S50000x128_S50000x256_d1 (ix2 n (hi k))
      = y (ix2 n k) :=
  concatenate_pair_apply_right (1 : Fin S50000x256.rank) x y concatenates_S50000x128_S50000x128_S50000x256_d1 (ix2 n (hi k)) rfl rfl (ix2 n k)
    (fun b hb => by match b with | ⟨0, _⟩ => rfl | ⟨1, _⟩ => exact absurd rfl hb)
    (by show k.val + 128 = 128 + k.val; omega)

/-- The reference's last stage at node `n` and output feature `o` is the layer's value there, over the reference's
    own neighbour sums and clamped in-degrees. -/
theorem result_apply (e : (⟨S2x600000, .i32⟩ : BufTy).Contents (Elt Ideal)) (x : (⟨S50000x128, .f32⟩ : BufTy).Contents (Elt Ideal))
    (W : (⟨S128x256, .f32⟩ : BufTy).Contents (Elt Ideal)) (b : (⟨S128, .f32⟩ : BufTy).Contents (Elt Ideal)) (n : Fin 50000) (o : Fin 128) :
    val_main_v28 (F := Ideal) e x W b (ix2 n o)
      = layerAt (val_main_v13 (F := Ideal) e x) (val_main_v19 (F := Ideal) e) x W b n o := by
  have eL : ∀ k : Fin 256, lidx_main_v24 (ix2 n o) k = ix2 n k := fun k => funext fun a => Fin.ext (by
    match a with | ⟨0, _⟩ => rfl | ⟨1, _⟩ => rfl)
  have eR : ∀ k : Fin 256, ridx_main_v24 (ix2 n o) k = ix2 o k := fun k => funext fun a => Fin.ext (by
    match a with | ⟨0, _⟩ => rfl | ⟨1, _⟩ => rfl)
  have eb : idx_main_v25 (idx_main_v26 (ix2 n o)) = ix1 o := funext fun a => Fin.ext (by match a with | ⟨0, _⟩ => rfl)
  have ey : ∀ k : Fin 128, idx_main_v20 (idx_main_v21 (ix2 n k)) = ix1 n := fun k => funext fun a => Fin.ext (by
    match a with | ⟨0, _⟩ => rfl)
  have h1 : ∀ k : Fin 128, val_main_v23 (F := Ideal) e x (ix2 n (lo k)) = x (ix2 n k) := fun k => by
    unfold val_main_v23; exact concat_lo _ _ n k
  have h2 : ∀ k : Fin 128, val_main_v23 (F := Ideal) e x (ix2 n (hi k))
      = Ideal.div (val_main_v13 (F := Ideal) e x (ix2 n k)) (val_main_v19 (F := Ideal) e (ix1 n)) := fun k => by
    unfold val_main_v23
    rw [concat_hi, val_main_v22_apply, val_main_v21_apply, val_main_v20_apply, ey k]
    rfl
  rw [val_main_v28_apply, val_main_v27_apply, val_main_v24_apply, val_main_v26_apply, val_main_v25_apply,
    val_main_call0_v0_apply, val_main_call0_cst_apply, eb]
  simp only [eL, eR]
  rw [sum_halves]
  simp only [h1, h2]
  unfold layerAt
  simp only [Ideal.maximumf_def, Ideal.addf_def, Ideal.ofBits_def, Ideal.ofBits_zero_f32]

/-- So the reference's result array is the layer. -/
theorem result_eq (e : (⟨S2x600000, .i32⟩ : BufTy).Contents (Elt Ideal)) (x : (⟨S50000x128, .f32⟩ : BufTy).Contents (Elt Ideal))
    (W : (⟨S128x256, .f32⟩ : BufTy).Contents (Elt Ideal)) (b : (⟨S128, .f32⟩ : BufTy).Contents (Elt Ideal)) :
    val_main_v28 (F := Ideal) e x W b = layer (val_main_v13 (F := Ideal) e x) (val_main_v19 (F := Ideal) e) x W b := by
  funext i
  obtain ⟨n, o, rfl⟩ : ∃ (n : Fin 50000) (o : Fin 128), i = ix2 n o := ⟨i 0, i 1, eq_ix2 i⟩
  exact result_apply e x W b n o

end Cert.Sage.Ref

end
-- ==== Proof.lean ====
/-
  A mean-aggregating graph layer: a tiled kernel against its array-language reference, over the extended reals.

  Both programs first form, by the same gather and scatter, the neighbour sums `S` (for each edge, the source
  node's feature row added into the target node's row) and the in-degrees, clamped below at one, `y`. The layer's
  value at node `n` and output feature `o` is then

      max ( Σ_k x(n,k)·W(o,k)  +  Σ_k (S(n,k) / y(n))·W(o,128+k)  +  b(o) ,  0 ).

  The reference computes it literally: it divides, joins the quotients to the node's own features as one row of
  256, contracts with the weight row, adds the bias and clamps. The kernel splits the transposed weights into two
  128 × 128 halves, passes the reciprocals `1 / y(n)` as a column, and in each of ten blocks of 5000 nodes multiplies
  the features by the first half and the scaled neighbour sums `S · (1 / y)` by the second, adds the two products
  and the bias, and clamps.

  The two agree on every extended real, with no appeal to finiteness: `S · (1 / y) = S / y` because `y ≥ 1` is not
  zero, a contraction over 256 positions is the sum of the contractions over its two halves, and a change of
  number format is the identity. The neighbour sums and clamped in-degrees are one function of the edge and feature
  arrays in both programs and are never opened.

  The kernel's frame, and the frame of its idealization, are the generated frame runs; the reference's frame is its
  generated run with the result dropped; the idealization rewrote nothing, so there is nothing to preserve.
-/
import proofs.«157514_j49331994362503_2_alg».proof.Defs
import proofs.«157514_j49331994362503_2_alg».proof.Proof.Gen.Kernel
import proofs.«157514_j49331994362503_2_alg».proof.Proof.Gen.Kernel.Skeleton
import proofs.«157514_j49331994362503_2_alg».proof.Proof.Gen.Kernel.Launch
import proofs.«157514_j49331994362503_2_alg».proof.Proof.Gen.Kernel.Points
import proofs.«157514_j49331994362503_2_alg».proof.Proof.Gen.Kernel.Frame
import proofs.«157514_j49331994362503_2_alg».proof.Proof.Gen.KernelIdeal
import proofs.«157514_j49331994362503_2_alg».proof.Proof.Gen.KernelIdeal.Skeleton
import proofs.«157514_j49331994362503_2_alg».proof.Proof.Gen.KernelIdeal.Launch
import proofs.«157514_j49331994362503_2_alg».proof.Proof.Gen.KernelIdeal.Points
import proofs.«157514_j49331994362503_2_alg».proof.Proof.Gen.KernelIdeal.Frame
import proofs.«157514_j49331994362503_2_alg».proof.Proof.Gen.ReferenceIdeal
import proofs.«157514_j49331994362503_2_alg».proof.Proof.Gen.Pre_finite_inputs
import proofs.«157514_j49331994362503_2_alg».proof.Proof.Gen.KernelIdeal.Value
import proofs.«157514_j49331994362503_2_alg».proof.Proof.Gen.ReferenceIdeal.Run
import proofs.«157514_j49331994362503_2_alg».proof.Proof.Gen.ReferenceIdeal.Read
import proofs.«157514_j49331994362503_2_alg».proof.Proof.SageValue
import proofs.«157514_j49331994362503_2_alg».proof.Proof.SageRef
import Idealize.ShloMosaic.Adequacy
import Idealize.ShloMosaic.Init

noncomputable section

namespace Cert.Proof

open Idealize.ShloMosaic Idealize.ShloMosaic.TcCoe Idealize.SL.Sem

/-! ## The shared stages are one function in both programs -/

/-- The kernel's neighbour sums and the reference's are the same gather and scatter of the same arrays. -/
theorem nbrSum_eq (e : (⟨Cert.KernelIdeal.S2x600000, .i32⟩ : BufTy).Contents (Elt Ideal))
    (x : (⟨Cert.KernelIdeal.S50000x128, .f32⟩ : BufTy).Contents (Elt Ideal)) :
    Cert.ReferenceIdeal.Read.val_main_v13 (F := Ideal) e x = Cert.Sage.Host.nbrSum e x := rfl

/-- … and so are the clamped in-degrees. -/
theorem degClamp_eq (e : (⟨Cert.KernelIdeal.S2x600000, .i32⟩ : BufTy).Contents (Elt Ideal)) :
    Cert.ReferenceIdeal.Read.val_main_v19 (F := Ideal) e = Cert.Sage.Host.degClamp e := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the layer of its arguments, and the reference's at the layer of arguments
    that agree with them: the same function of the same arrays. -/
theorem algebraic : Cert.algebraic_KernelIdeal_ReferenceIdeal := by
  intro m ρ m' ρ' _ hagree
  refine ⟨fun c => Cert.Sage.Value.result m c, Cert.Sage.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Sage.Ref.result_eq, (hagree c).2.1, (hagree c).2.2.1,
    (hagree c).2.2.2.1, (hagree c).2.2.2.2, nbrSum_eq, degClamp_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
